-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x640 : Shape := ⟨3, ![4, 256, 640]⟩
abbrev S4x64x640 : Shape := ⟨3, ![4, 64, 640]⟩
abbrev S4096x640 : Shape := ⟨2, ![4096, 640]⟩
abbrev S4096 : Shape := ⟨1, ![4096]⟩
abbrev S_ : Shape := ⟨0, ![]⟩

class Facts : Prop where
  bcast_S_S4x256x640 : S_.BroadcastsInDim S4x256x640 (![] : Fin 0 → Fin S4x256x640.rank)
  reducesTo_S4x256x640_S_d0_1_2 : S4x256x640.ReducesTo [0, 1, 2] S_
  h_S_ : 0 < S_.numel
  bcast_S_S4x64x640 : S_.BroadcastsInDim S4x64x640 (![] : Fin 0 → Fin S4x64x640.rank)
  reducesTo_S4x64x640_S_d0_1_2 : S4x64x640.ReducesTo [0, 1, 2] S_
  bcast_S_S4096x640 : S_.BroadcastsInDim S4096x640 (![] : Fin 0 → Fin S4096x640.rank)
  reducesTo_S4096x640_S_d0_1 : S4096x640.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x256x640 .f32) (main_arg1 : FVec F S4x64x640 .f32) (main_arg2 : FVec F S4096x640 .f32) (main_arg3 : FVec F S4096 .f32) : IVec S_ 1 :=
  let main_v0 : FVec F S4x256x640 .f32 := Host.absf main_arg0
  let main_cst : FVec F S_ .f32 := constant S_ .f32 0x7F800000#32
  let main_v1 : FVec F S4x256x640 .f32 := broadcastInDim S4x256x640 ![] bcast_S_S4x256x640 main_cst
  let main_v2 : IVec S4x256x640 1 := cmpf .olt main_v0 main_v1
  let main_c : IVec S_ 1 := constantI S_ 1 1#1
  let main_v3 : IVec S_ 1 := (fun x v => Host.reduce IntOp.andi x v reducesTo_S4x256x640_S_d0_1_2 h_S_) main_v2 main_c
  let main_v4 : FVec F S4x64x640 .f32 := Host.absf main_arg1
  let main_cst_0 : FVec F S_ .f32 := constant S_ .f32 0x7F800000#32
  let main_v5 : FVec F S4x64x640 .f32 := broadcastInDim S4x64x640 ![] bcast_S_S4x64x640 main_cst_0
  let main_v6 : IVec S4x64x640 1 := cmpf .olt main_v4 main_v5
  let main_c_1 : IVec S_ 1 := constantI S_ 1 1#1
  let main_v7 : IVec S_ 1 := (fun x v => Host.reduce IntOp.andi x v reducesTo_S4x64x640_S_d0_1_2 h_S_) main_v6 main_c_1
  let main_v8 : IVec S_ 1 := andi main_v3 main_v7
  let main_v9 : FVec F S4096x640 .f32 := Host.absf main_arg2
  let main_cst_2 : FVec F S_ .f32 := constant S_ .f32 0x7F800000#32
  let main_v10 : FVec F S4096x640 .f32 := broadcastInDim S4096x640 ![] bcast_S_S4096x640 main_cst_2
  let main_v11 : IVec S4096x640 1 := cmpf .olt main_v9 main_v10
  let main_c_3 : IVec S_ 1 := constantI S_ 1 1#1
  let main_v12 : IVec S_ 1 := (fun x v => Host.reduce IntOp.andi x v reducesTo_S4096x640_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x256x640 : Shape := ⟨3, ![4, 256, 640]⟩
abbrev S4x64x640 : Shape := ⟨3, ![4, 64, 640]⟩
abbrev S4096x640 : Shape := ⟨2, ![4096, 640]⟩
abbrev S4096 : Shape := ⟨1, ![4096]⟩
abbrev S640x4096 : Shape := ⟨2, ![640, 4096]⟩
abbrev S1x4096 : Shape := ⟨2, ![1, 4096]⟩
abbrev S65536x4096 : Shape := ⟨2, ![65536, 4096]⟩
abbrev S1x8x640 : Shape := ⟨3, ![1, 8, 640]⟩
abbrev S1x64x640 : Shape := ⟨3, ![1, 64, 640]⟩
abbrev S512x4096 : Shape := ⟨2, ![512, 4096]⟩
abbrev S64x640 : Shape := ⟨2, ![64, 640]⟩
abbrev S1x1x640 : Shape := ⟨3, ![1, 1, 640]⟩
abbrev S640 : Shape := ⟨1, ![640]⟩
abbrev S1x640 : Shape := ⟨2, ![1, 640]⟩
abbrev S512x640 : Shape := ⟨2, ![512, 640]⟩
abbrev S4x256x64x4096 : Shape := ⟨4, ![4, 256, 64, 4096]⟩

abbrev nBuf : Space → Nat
  | .hbm => 9
  | .vmem => 8
  | .smem => 0
  | _ => 0

abbrev bufTy : (tb : Table) → Fin (tcTables nBuf tb) → BufTy
  | .hbm, ⟨0, _⟩ => ⟨S4x256x640, .f32⟩
  | .hbm, ⟨1, _⟩ => ⟨S4x64x640, .f32⟩
  | .hbm, ⟨2, _⟩ => ⟨S4096x640, .f32⟩
  | .hbm, ⟨3, _⟩ => ⟨S4096, .f32⟩
  | .hbm, ⟨4, _⟩ => ⟨S640x4096, .f32⟩
  | .hbm, ⟨5, _⟩ => ⟨S640x4096, .bf16⟩
  | .hbm, ⟨6, _⟩ => ⟨S1x4096, .f32⟩
  | .hbm, ⟨7, _⟩ => ⟨S65536x4096, .f32⟩
  | .hbm, ⟨8, _⟩ => ⟨S4x256x64x4096, .f32⟩
  | .local _ .vmem, ⟨0, _⟩ => ⟨S1x8x640, .f32⟩
  | .local _ .vmem, ⟨1, _⟩ => ⟨S1x8x640, .f32⟩
  | .local _ .vmem, ⟨2, _⟩ => ⟨S1x64x640, .f32⟩
  | .local _ .vmem, ⟨3, _⟩ => ⟨S1x64x640, .f32⟩
  | .local _ .vmem, ⟨4, _⟩ => ⟨S640x4096, .bf16⟩
  | .local _ .vmem, ⟨5, _⟩ => ⟨S1x4096, .f32⟩
  | .local _ .vmem, ⟨6, _⟩ => ⟨S512x4096, .f32⟩
  | .local _ .vmem, ⟨7, _⟩ => ⟨S512x4096, .f32⟩
  | _, _ => ⟨S4x256x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S640x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S4096x640_S640x4096_1_0 : S4096x640.Transposes [1, 0] S640x4096
  bitsLt_bf16_f32 : FTy.bits .bf16 < FTy.bits .f32
  shapeCasts_S4096_S1x4096 : S4096.ShapeCasts S1x4096
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  inb_S1x8x640_S1x1x640_0_0_0 : ∀ a, (![0, 0, 0] : Fin 3 → Nat) a + S1x1x640.size a ≤ S1x8x640.size a
  h_S1x1x640 : 0 < S1x1x640.numel
  shapeCasts_S1x1x640_S640 : S1x1x640.ShapeCasts S640
  shapeCasts_S640_S1x640 : S640.ShapeCasts S1x640
  broadcasts_S1x640_S64x640 : S1x640.Broadcasts S64x640
  inb_S1x8x640_S1x1x640_0_1_0 : ∀ a, (![0, 1, 0] : Fin 3 → Nat) a + S1x1x640.size a ≤ S1x8x640.size a
  inb_S1x8x640_S1x1x640_0_2_0 : ∀ a, (![0, 2, 0] : Fin 3 → Nat) a + S1x1x640.size a ≤ S1x8x640.size a
  inb_S1x8x640_S1x1x640_0_3_0 : ∀ a, (![0, 3, 0] : Fin 3 → Nat) a + S1x1x640.size a ≤ S1x8x640.size a
  inb_S1x8x640_S1x1x640_0_4_0 : ∀ a, (![0, 4, 0] : Fin 3 → Nat) a + S1x1x640.size a ≤ S1x8x640.size a
  inb_S1x8x640_S1x1x640_0_5_0 : ∀ a, (![0, 5, 0] : Fin 3 → Nat) a + S1x1x640.size a ≤ S1x8x640.size a
  inb_S1x8x640_S1x1x640_0_6_0 : ∀ a, (![0, 6, 0] : Fin 3 → Nat) a + S1x1x640.size a ≤ S1x8x640.size a
  inb_S1x8x640_S1x1x640_0_7_0 : ∀ a, (![0, 7, 0] : Fin 3 → Nat) a + S1x1x640.size a ≤ S1x8x640.size a
  concatenates_S64x640_S64x640_S64x640_S64x640_S64x640_S64x640_S64x640_S64x640_S512x640_d0 : Shape.Concatenates [S64x640, S64x640, S64x640, S64x640, S64x640, S64x640, S64x640, S64x640] S512x640 0
  inb_S640x4096_S640x4096_0_0 : ∀ a, (![0, 0] : Fin 2 → Nat) a + S640x4096.size a ≤ S640x4096.size a
  h_S640x4096 : 0 < S640x4096.numel
  shapeCasts_S640x4096_S640x4096 : S640x4096.ShapeCasts S640x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  shapeCasts_S65536x4096_S4x256x64x4096 : S65536x4096.ShapeCasts S4x256x64x4096
  dot_S512x640_S640x4096_S512x4096_1_0_0_1_n_n_wf : DotDims.WF S512x640 S640x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x640.size a ≤ S4x256x640.size a
  hwx0_0 : ∀ i : grid0.Coords, EltTy.bits .f32 = 32 ∨ (Rect.block (s := S4x256x640) S1x8x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x640.size a ≤ S4x64x640.size a
  hwx0_1 : ∀ i : grid0.Coords, EltTy.bits .f32 = 32 ∨ (Rect.block (s := S4x64x640) S1x64x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x4096.size a ≤ S640x4096.size a
  hwx0_2 : ∀ i : grid0.Coords, EltTy.bits .bf16 = 32 ∨ (Rect.block (s := S640x4096) S640x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S65536x4096.size a
  hwx0_4 : ∀ i : grid0.Coords, EltTy.bits .f32 = 32 ∨ (Rect.block (s := S65536x4096) S512x4096.size (cc0_transform_4 i) (hinb0_4 i)).WholeWords (EltTy.packing .f32)

variable [Facts₀]

def dot_S512x640_S640x4096_S512x4096_1_0_0_1_n_n : DotDims S512x640 S640x4096 S512x4096 where
  lhsContracting := [1]
  rhsContracting := [0]
  lhsNonContracting := [0]
  rhsNonContracting := [1]
  lhsBatch := []
  rhsBatch := []
  wf := dot_S512x640_S640x4096_S512x4096_1_0_0_1_n_n_wf

abbrev win0_0 : Pipeline.Window sig grid0 :=
  Pipeline.Window.ofSpec (Memref.whole main_arg0) S1x8x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S640x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x640 : Shape := ⟨3, ![4, 256, 640]⟩
abbrev S4x64x640 : Shape := ⟨3, ![4, 64, 640]⟩
abbrev S4096x640 : Shape := ⟨2, ![4096, 640]⟩
abbrev S4096 : Shape := ⟨1, ![4096]⟩
abbrev S4x256x1x640 : Shape := ⟨4, ![4, 256, 1, 640]⟩
abbrev S4x1x64x640 : Shape := ⟨4, ![4, 1, 64, 640]⟩
abbrev S4x256x64x640 : Shape := ⟨4, ![4, 256, 64, 640]⟩
abbrev S4x256x64x4096 : Shape := ⟨4, ![4, 256, 64, 4096]⟩
abbrev S1x1x1x4096 : Shape := ⟨4, ![1, 1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x256x640, .f32⟩
  | .hbm, ⟨1, _⟩ => ⟨S4x64x640, .f32⟩
  | .hbm, ⟨2, _⟩ => ⟨S4096x640, .f32⟩
  | .hbm, ⟨3, _⟩ => ⟨S4096, .f32⟩
  | .hbm, ⟨4, _⟩ => ⟨S4x256x1x640, .f32⟩
  | .hbm, ⟨5, _⟩ => ⟨S4x1x64x640, .f32⟩
  | .hbm, ⟨6, _⟩ => ⟨S4x256x64x640, .f32⟩
  | .hbm, ⟨7, _⟩ => ⟨S4x256x64x640, .f32⟩
  | .hbm, ⟨8, _⟩ => ⟨S4x256x64x640, .f32⟩
  | .hbm, ⟨9, _⟩ => ⟨S4x256x64x640, .f32⟩
  | .hbm, ⟨10, _⟩ => ⟨S4x256x64x4096, .f32⟩
  | .hbm, ⟨11, _⟩ => ⟨S1x1x1x4096, .f32⟩
  | .hbm, ⟨12, _⟩ => ⟨S4x256x64x4096, .f32⟩
  | .hbm, ⟨13, _⟩ => ⟨S4x256x64x4096, .f32⟩
  | _, _ => ⟨S4x256x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S4x256x640_S4x256x1x640_0_1_3 : S4x256x640.BroadcastsInDim S4x256x1x640 (![0, 1, 3] : Fin 3 → Fin S4x256x1x640.rank)
  bcast_S4x64x640_S4x1x64x640_0_2_3 : S4x64x640.BroadcastsInDim S4x1x64x640 (![0, 2, 3] : Fin 3 → Fin S4x1x64x640.rank)
  bcast_S4x256x1x640_S4x256x64x640_0_1_2_3 : S4x256x1x640.BroadcastsInDim S4x256x64x640 (![0, 1, 2, 3] : Fin 4 → Fin S4x256x64x640.rank)
  bcast_S4x1x64x640_S4x256x64x640_0_1_2_3 : S4x1x64x640.BroadcastsInDim S4x256x64x640 (![0, 1, 2, 3] : Fin 4 → Fin S4x256x64x640.rank)
  bcast_S4096_S1x1x1x4096_3 : S4096.BroadcastsInDim S1x1x1x4096 (![3] : Fin 1 → Fin S1x1x1x4096.rank)
  bcast_S1x1x1x4096_S4x256x64x4096_0_1_2_3 : S1x1x1x4096.BroadcastsInDim S4x256x64x4096 (![0, 1, 2, 3] : Fin 4 → Fin S4x256x64x4096.rank)
  dot_S4x256x64x640_S4096x640_S4x256x64x4096_3_1_012_0_n_n_wf : DotDims.WF S4x256x64x640 S4096x640 S4x256x64x4096 [3] [1] [0, 1, 2] [0] [] []

variable [Facts₀]

def dot_S4x256x64x640_S4096x640_S4x256x64x4096_3_1_012_0_n_n : DotDims S4x256x64x640 S4096x640 S4x256x64x4096 where
  lhsContracting := [3]
  rhsContracting := [1]
  lhsNonContracting := [0, 1, 2]
  rhsNonContracting := [0]
  lhsBatch := []
  rhsBatch := []
  wf := dot_S4x256x64x640_S4096x640_S4x256x64x4096_3_1_012_0_n_n_wf

class Facts : Prop extends Facts₀ where

variable [Facts]
-- ==== Proof.Spec.lean ====
/-
  The joiner of a transducer network, as one function of its four argument arrays.

  For an encoder array `enc[b, t, d]`, a predictor array `pred[b, u, d]`, an output weight `W[v, d]` and a bias
  `bias[v]`, the joint output is

      joint[b, t, u, v] = Σ_d tanh (enc[b, t, d] + pred[b, u, d]) · W[v, d] + bias[v]

  over the extended reals, with `d` ranging over the 640 joint features. `cell` is one entry written by its four
  coordinates; `joint` is the rank-4 array; `rows` is the same array with its three leading axes flattened
  row-major into one axis of `4 · 256 · 64 = 65536` rows (row `r` is `b = r / 16384`, `t = r / 64 % 256`,
  `u = r % 64`), the form in which a kernel tiling the rows writes it; `rows_eq` says the two agree.
-/
import Idealize.ShloMosaic.PureOps.Ideal
import Idealize.ShloMosaic.Lib.ValueIdx

noncomputable section

namespace Cert.Joiner

open Idealize.ShloMosaic Idealize.ShloMosaic.ValueIdx

/-- One entry of the joint output: the feature sum of `tanh (enc + pred) · W`, plus the bias. -/
def cell (enc : FVec Ideal ⟨3, ![4, 256, 640]⟩ .f32) (pred : FVec Ideal ⟨3, ![4, 64, 640]⟩ .f32)
    (W : FVec Ideal ⟨2, ![4096, 640]⟩ .f32) (bias : FVec Ideal ⟨1, ![4096]⟩ .f32)
    (b : Fin 4) (t : Fin 256) (u : Fin 64) (v : Fin 4096) : EReal :=
  (∑ d : Fin 640, Ideal.tanh (enc (ix3 b t d) + pred (ix3 b u d)) * W (ix2 v d)) + bias (ix1 v)

/-- The joint output as a rank-4 array. -/
def joint (enc : FVec Ideal ⟨3, ![4, 256, 640]⟩ .f32) (pred : FVec Ideal ⟨3, ![4, 64, 640]⟩ .f32)
    (W : FVec Ideal ⟨2, ![4096, 640]⟩ .f32) (bias : FVec Ideal ⟨1, ![4096]⟩ .f32) :
    FVec Ideal ⟨4, ![4, 256, 64, 4096]⟩ .f32 :=
  fun i => cell enc pred W bias (i 0) (i 1) (i 2) (i 3)

theorem row_b (r : Fin 65536) : r.val / 16384 < 4 := by have := r.isLt; omega
theorem row_t (r : Fin 65536) : r.val / 64 % 256 < 256 := Nat.mod_lt _ (by decide)
theorem row_u (r : Fin 65536) : r.val % 64 < 64 := Nat.mod_lt _ (by decide)

/-- The joint output with `(b, t, u)` flattened row-major into 65536 rows. -/
def rows (enc : FVec Ideal ⟨3, ![4, 256, 640]⟩ .f32) (pred : FVec Ideal ⟨3, ![4, 64, 640]⟩ .f32)
    (W : FVec Ideal ⟨2, ![4096, 640]⟩ .f32) (bias : FVec Ideal ⟨1, ![4096]⟩ .f32) :
    FVec Ideal ⟨2, ![65536, 4096]⟩ .f32 :=
  fun j => cell enc pred W bias ⟨(j 0).val / 16384, row_b (j 0)⟩ ⟨(j 0).val / 64 % 256, row_t (j 0)⟩
    ⟨(j 0).val % 64, row_u (j 0)⟩ (j 1)

/-- Row `(b · 256 + t) · 64 + u` of the flattened array is entry `(b, t, u)` of the rank-4 one. -/
theorem rows_eq (enc : FVec Ideal ⟨3, ![4, 256, 640]⟩ .f32) (pred : FVec Ideal ⟨3, ![4, 64, 640]⟩ .f32)
    (W : FVec Ideal ⟨2, ![4096, 640]⟩ .f32) (bias : FVec Ideal ⟨1, ![4096]⟩ .f32)
    (b : Fin 4) (t : Fin 256) (u : Fin 64) (v : Fin 4096) (r : Fin 65536)
    (hr : r.val = (b.val * 256 + t.val) * 64 + u.val) :
    rows enc pred W bias (ix2 r v) = joint enc pred W bias (ix4 b t u v) := by
  have hb := b.isLt; have ht := t.isLt; have hu := u.isLt
  show cell enc pred W bias ⟨r.val / 16384, _⟩ ⟨r.val / 64 % 256, _⟩ ⟨r.val % 64, _⟩ v = cell enc pred W bias b t u v
  have e0 : (⟨r.val / 16384, row_b r⟩ : Fin 4) = b := Fin.ext (by show r.val / 16384 = b.val; omega)
  have e1 : (⟨r.val / 64 % 256, row_t r⟩ : Fin 256) = t := Fin.ext (by show r.val / 64 % 256 = t.val; omega)
  have e2 : (⟨r.val % 64, row_u r⟩ : Fin 64) = u := Fin.ext (by show r.val % 64 = u.val; omega)
  rw [e0, e1, e2]

end Cert.Joiner

end
-- ==== Proof.RefSide.lean ====
/-
  The reference program computes the joint output.

  Read one operation at a time, the reference broadcasts `enc` over the `u` axis and `pred` over the `t` axis, adds
  them, takes `tanh`, contracts the feature axis against the weight's feature axis, and adds the bias broadcast over
  `(b, t, u)`. At entry `(b, t, u, v)` the two broadcasts read `enc[b, t, d]` and `pred[b, u, d]`, the contraction is
  the sum over `d` of the product with `W[v, d]`, and the bias term is `bias[v]`: the entry is `Joiner.cell`.
-/
import proofs.«134151_j85633057948138_2_alg».proof.Proof.Gen.ReferenceIdeal.Run
import proofs.«134151_j85633057948138_2_alg».proof.Proof.Gen.ReferenceIdeal.Read
import proofs.«134151_j85633057948138_2_alg».proof.Proof.Spec

noncomputable section

namespace Cert.ReferenceIdeal.RefValue

open Cert.ReferenceIdeal Cert.ReferenceIdeal.Read Idealize.ShloMosaic Idealize.ShloMosaic.ValueIdx

/-- The reference's result, as a function of its four arguments, is the joint output. -/
theorem result_eq (x0 : FVec Ideal S4x256x640 .f32) (x1 : FVec Ideal S4x64x640 .f32)
    (x2 : FVec Ideal S4096x640 .f32) (x3 : FVec Ideal S4096 .f32) :
    val_main_v9 (F := Ideal) x0 x1 x2 x3 = Cert.Joiner.joint x0 x1 x2 x3 := by
  funext i
  obtain ⟨b, t, u, v, rfl⟩ : ∃ (b : Fin 4) (t : Fin 256) (u : Fin 64) (v : Fin 4096), i = ix4 b t u v :=
    ⟨i 0, i 1, i 2, i 3, eq_ix4 i⟩
  rw [val_main_v9_apply, val_main_v6_apply, val_main_v8_apply, val_main_v7_apply]
  have eb : idx_main_v7 (idx_main_v8 (ix4 b t u v)) = ix1 v :=
    funext fun a => Fin.ext (by match a with | ⟨0, _⟩ => rfl)
  rw [eb]
  show (∑ k : Fin 640, _) + x3 (ix1 v) = (∑ d : Fin 640, _) + x3 (ix1 v)
  refine congrArg (· + x3 (ix1 v)) (Finset.sum_congr rfl fun k _ => ?_)
  rw [val_main_v5_apply, val_main_v4_apply, val_main_v2_apply, val_main_v0_apply, val_main_v3_apply, val_main_v1_apply]
  have e0 : idx_main_v0 (idx_main_v2 (lidx_main_v6 (ix4 b t u v) k)) = ix3 b t k :=
    funext fun a => Fin.ext (by match a with | ⟨0, _⟩ => rfl | ⟨1, _⟩ => rfl | ⟨2, _⟩ => rfl)
  have e1 : idx_main_v1 (idx_main_v3 (lidx_main_v6 (ix4 b t u v) k)) = ix3 b u k :=
    funext fun a => Fin.ext (by match a with | ⟨0, _⟩ => rfl | ⟨1, _⟩ => rfl | ⟨2, _⟩ => rfl)
  have e2 : ridx_main_v6 (ix4 b t u v) k = ix2 v k :=
    funext fun a => Fin.ext (by match a with | ⟨0, _⟩ => rfl | ⟨1, _⟩ => rfl)
  rw [e0, e1, e2]
  rfl

end Cert.ReferenceIdeal.RefValue

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.LibLoadAt.lean ====
/-
  Small facts about reading an array at an index written by coordinates: a load through a rectangle of a two- or
  three-axis array (the rectangle's offset is added, coordinate by coordinate), and a sum over the columns of a matrix
  taken row by row. General: nothing here mentions a program.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibLoadAt

open Idealize.ShloMosaic Idealize.ShloMosaic.ValueIdx

variable {Val : EltTy → Type} {e : EltTy}

/-- A load through the unit-stride rectangle at offset `(o0, o1)` with extents `(m0, m1)` of an `[n0, n1]` array reads,
    at `(a, b)`, the array at `(o0 + a, o1 + b)`. -/
theorem ld2_at {n0 n1 m0 m1 : ℕ} (X : (⟨2, ![n0, n1]⟩ : Shape).Idx → Val e) (o0 o1 : ℕ)
    (inb : ∀ a, (![o0, o1] : Fin 2 → ℕ) a + (⟨2, ![m0, m1]⟩ : Shape).size a ≤ (⟨2, ![n0, n1]⟩ : Shape).size a)
    (a : Fin m0) (b : Fin m1) (a' : Fin n0) (b' : Fin n1) (ha : a'.val = o0 + a.val) (hb : b'.val = o1 + b.val) :
    View.ld X (Rect.unit (s := ⟨2, ![n0, n1]⟩) ![o0, o1] (⟨2, ![m0, m1]⟩ : Shape).size inb) (ix2 a b) = X (ix2 a' b') := by
  show X ((Rect.unit (s := ⟨2, ![n0, n1]⟩) ![o0, o1] (⟨2, ![m0, m1]⟩ : Shape).size inb).emb (ix2 a b)) = _
  refine congrArg X (funext fun d => Fin.ext ?_)
  match d with
  | ⟨0, _⟩ => show o0 + 1 * a.val = a'.val; omega
  | ⟨1, _⟩ => show o1 + 1 * b.val = b'.val; omega

/-- The same for a three-axis array. -/
theorem ld3_at {n0 n1 n2 m0 m1 m2 : ℕ} (X : (⟨3, ![n0, n1, n2]⟩ : Shape).Idx → Val e) (o0 o1 o2 : ℕ)
    (inb : ∀ a, (![o0, o1, o2] : Fin 3 → ℕ) a + (⟨3, ![m0, m1, m2]⟩ : Shape).size a ≤ (⟨3, ![n0, n1, n2]⟩ : Shape).size a)
    (a : Fin m0) (b : Fin m1) (c : Fin m2) (a' : Fin n0) (b' : Fin n1) (c' : Fin n2)
    (ha : a'.val = o0 + a.val) (hb : b'.val = o1 + b.val) (hc : c'.val = o2 + c.val) :
    View.ld X (Rect.unit (s := ⟨3, ![n0, n1, n2]⟩) ![o0, o1, o2] (⟨3, ![m0, m1, m2]⟩ : Shape).size inb) (ix3 a b c)
      = X (ix3 a' b' c') := by
  show X ((Rect.unit (s := ⟨3, ![n0, n1, n2]⟩) ![o0, o1, o2] (⟨3, ![m0, m1, m2]⟩ : Shape).size inb).emb (ix3 a b c)) = _
  refine congrArg X (funext fun d => Fin.ext ?_)
  match d with
  | ⟨0, _⟩ => show o0 + 1 * a.val = a'.val; omega
  | ⟨1, _⟩ => show o1 + 1 * b.val = b'.val; omega
  | ⟨2, _⟩ => show o2 + 1 * c.val = c'.val; omega

/-- A sum over the columns of an `[a, b]` matrix from the neutral accumulator, read at row `y`, is `Σ_k src (y, k)`. -/
theorem rowsum_at {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (y : Fin a) :
    multiReduction .add [1] (⟨1, ![a]⟩ : Shape) src acc h hφ hacc (ix1 y) = ∑ k : Fin b, src (ix2 y k) := by
  rw [Ideal.multiReduction_add_single]
  refine Finset.sum_congr rfl fun k _ => congrArg src ?_
  funext c; apply Fin.ext
  fin_cases c <;> rfl

end Cert.LibLoadAt

end
-- ==== Proof.LibRowStack.lean ====
/-
  Eight equal blocks stacked along the rows.

  Eight `[a, b]` arrays concatenated along axis 0 into an `[n, b]` array, read at row `k · a + u` and column `d`, give the
  `k`-th block at `(u, d)`. The statement takes the eight blocks one by one together with a single description
  `g k u d` of what block `k` holds at `(u, d)`, so that a caller whose blocks are eight instances of one expression
  reads the stack in one step. General: nothing here mentions a program.
-/
import Idealize.ShloMosaic.Lib.Pipeline.Value
import Idealize.ShloMosaic.Lib.ValueIdx

noncomputable section

namespace Cert.LibRowStack

open Idealize.ShloMosaic Idealize.ShloMosaic.ValueIdx

variable {α : Type}

/-- Row `k · a + u` of eight `[a, b]` blocks stacked along the rows is row `u` of block `k`. -/
theorem stack8_at {a b n : ℕ} (f0 f1 f2 f3 f4 f5 f6 f7 : (⟨2, ![a, b]⟩ : Shape).Idx → α)
    (h : Shape.Concatenates [(⟨2, ![a, b]⟩ : Shape), (⟨2, ![a, b]⟩ : Shape), (⟨2, ![a, b]⟩ : Shape), (⟨2, ![a, b]⟩ : Shape), (⟨2, ![a, b]⟩ : Shape), (⟨2, ![a, b]⟩ : Shape), (⟨2, ![a, b]⟩ : Shape), (⟨2, ![a, b]⟩ : Shape)] ⟨2, ![n, b]⟩ (0 : Fin 2))
    (g : Fin 8 → Fin a → Fin b → α)
    (h0 : ∀ u d, f0 (ix2 u d) = g 0 u d) (h1 : ∀ u d, f1 (ix2 u d) = g 1 u d)
    (h2 : ∀ u d, f2 (ix2 u d) = g 2 u d) (h3 : ∀ u d, f3 (ix2 u d) = g 3 u d)
    (h4 : ∀ u d, f4 (ix2 u d) = g 4 u d) (h5 : ∀ u d, f5 (ix2 u d) = g 5 u d)
    (h6 : ∀ u d, f6 (ix2 u d) = g 6 u d) (h7 : ∀ u d, f7 (ix2 u d) = g 7 u d)
    (k : Fin 8) (u : Fin a) (d : Fin b) (p : Fin n) (hp : p.val = k.val * a + u.val) :
    concatenate ⟨2, ![n, b]⟩ (0 : Fin 2)
        [⟨(⟨2, ![a, b]⟩ : Shape), f0⟩, ⟨(⟨2, ![a, b]⟩ : Shape), f1⟩, ⟨(⟨2, ![a, b]⟩ : Shape), f2⟩, ⟨(⟨2, ![a, b]⟩ : Shape), f3⟩, ⟨(⟨2, ![a, b]⟩ : Shape), f4⟩, ⟨(⟨2, ![a, b]⟩ : Shape), f5⟩, ⟨(⟨2, ![a, b]⟩ : Shape), f6⟩, ⟨(⟨2, ![a, b]⟩ : Shape), f7⟩] h (ix2 p d)
      = g k u d :=
  match k, hp with
  | ⟨0, _⟩, hp =>
    (concatenate_apply_piece (t := ⟨2, ![n, b]⟩) (0 : Fin 2) ([⟨(⟨2, ![a, b]⟩ : Shape), f0⟩, ⟨(⟨2, ![a, b]⟩ : Shape), f1⟩, ⟨(⟨2, ![a, b]⟩ : Shape), f2⟩, ⟨(⟨2, ![a, b]⟩ : Shape), f3⟩, ⟨(⟨2, ![a, b]⟩ : Shape), f4⟩, ⟨(⟨2, ![a, b]⟩ : Shape), f5⟩, ⟨(⟨2, ![a, b]⟩ : Shape), f6⟩, ⟨(⟨2, ![a, b]⟩ : Shape), f7⟩] : List ((s : Shape) × (s.Idx → α))) h (ix2 p d) 0 (show 0 < 8 by decide) ⟨2, ![a, b]⟩ f0 rfl rfl (0) rfl (ix2 u d)
      (fun c hc => match c, hc with | ⟨0, _⟩, hc => absurd rfl hc | ⟨1, _⟩, _ => rfl)
      (by have hp' : p.val = 0 * a + u.val := hp
          show 0 + u.val = p.val; omega)).trans (h0 u d)
  | ⟨1, _⟩, hp =>
    (concatenate_apply_piece (t := ⟨2, ![n, b]⟩) (0 : Fin 2) ([⟨(⟨2, ![a, b]⟩ : Shape), f0⟩, ⟨(⟨2, ![a, b]⟩ : Shape), f1⟩, ⟨(⟨2, ![a, b]⟩ : Shape), f2⟩, ⟨(⟨2, ![a, b]⟩ : Shape), f3⟩, ⟨(⟨2, ![a, b]⟩ : Shape), f4⟩, ⟨(⟨2, ![a, b]⟩ : Shape), f5⟩, ⟨(⟨2, ![a, b]⟩ : Shape), f6⟩, ⟨(⟨2, ![a, b]⟩ : Shape), f7⟩] : List ((s : Shape) × (s.Idx → α))) h (ix2 p d) 1 (show 1 < 8 by decide) ⟨2, ![a, b]⟩ f1 rfl rfl (a + (0)) rfl (ix2 u d)
      (fun c hc => match c, hc with | ⟨0, _⟩, hc => absurd rfl hc | ⟨1, _⟩, _ => rfl)
      (by have hp' : p.val = 1 * a + u.val := hp
          show a + (0) + u.val = p.val; omega)).trans (h1 u d)
  | ⟨2, _⟩, hp =>
    (concatenate_apply_piece (t := ⟨2, ![n, b]⟩) (0 : Fin 2) ([⟨(⟨2, ![a, b]⟩ : Shape), f0⟩, ⟨(⟨2, ![a, b]⟩ : Shape), f1⟩, ⟨(⟨2, ![a, b]⟩ : Shape), f2⟩, ⟨(⟨2, ![a, b]⟩ : Shape), f3⟩, ⟨(⟨2, ![a, b]⟩ : Shape), f4⟩, ⟨(⟨2, ![a, b]⟩ : Shape), f5⟩, ⟨(⟨2, ![a, b]⟩ : Shape), f6⟩, ⟨(⟨2, ![a, b]⟩ : Shape), f7⟩] : List ((s : Shape) × (s.Idx → α))) h (ix2 p d) 2 (show 2 < 8 by decide) ⟨2, ![a, b]⟩ f2 rfl rfl (a + (a + (0))) rfl (ix2 u d)
      (fun c hc => match c, hc with | ⟨0, _⟩, hc => absurd rfl hc | ⟨1, _⟩, _ => rfl)
      (by have hp' : p.val = 2 * a + u.val := hp
          show a + (a + (0)) + u.val = p.val; omega)).trans (h2 u d)
  | ⟨3, _⟩, hp =>
    (concatenate_apply_piece (t := ⟨2, ![n, b]⟩) (0 : Fin 2) ([⟨(⟨2, ![a, b]⟩ : Shape), f0⟩, ⟨(⟨2, ![a, b]⟩ : Shape), f1⟩, ⟨(⟨2, ![a, b]⟩ : Shape), f2⟩, ⟨(⟨2, ![a, b]⟩ : Shape), f3⟩, ⟨(⟨2, ![a, b]⟩ : Shape), f4⟩, ⟨(⟨2, ![a, b]⟩ : Shape), f5⟩, ⟨(⟨2, ![a, b]⟩ : Shape), f6⟩, ⟨(⟨2, ![a, b]⟩ : Shape), f7⟩] : List ((s : Shape) × (s.Idx → α))) h (ix2 p d) 3 (show 3 < 8 by decide) ⟨2, ![a, b]⟩ f3 rfl rfl (a + (a + (a + (0)))) rfl (ix2 u d)
      (fun c hc => match c, hc with | ⟨0, _⟩, hc => absurd rfl hc | ⟨1, _⟩, _ => rfl)
      (by have hp' : p.val = 3 * a + u.val := hp
          show a + (a + (a + (0))) + u.val = p.val; omega)).trans (h3 u d)
  | ⟨4, _⟩, hp =>
    (concatenate_apply_piece (t := ⟨2, ![n, b]⟩) (0 : Fin 2) ([⟨(⟨2, ![a, b]⟩ : Shape), f0⟩, ⟨(⟨2, ![a, b]⟩ : Shape), f1⟩, ⟨(⟨2, ![a, b]⟩ : Shape), f2⟩, ⟨(⟨2, ![a, b]⟩ : Shape), f3⟩, ⟨(⟨2, ![a, b]⟩ : Shape), f4⟩, ⟨(⟨2, ![a, b]⟩ : Shape), f5⟩, ⟨(⟨2, ![a, b]⟩ : Shape), f6⟩, ⟨(⟨2, ![a, b]⟩ : Shape), f7⟩] : List ((s : Shape) × (s.Idx → α))) h (ix2 p d) 4 (show 4 < 8 by decide) ⟨2, ![a, b]⟩ f4 rfl rfl (a + (a + (a + (a + (0))))) rfl (ix2 u d)
      (fun c hc => match c, hc with | ⟨0, _⟩, hc => absurd rfl hc | ⟨1, _⟩, _ => rfl)
      (by have hp' : p.val = 4 * a + u.val := hp
          show a + (a + (a + (a + (0)))) + u.val = p.val; omega)).trans (h4 u d)
  | ⟨5, _⟩, hp =>
    (concatenate_apply_piece (t := ⟨2, ![n, b]⟩) (0 : Fin 2) ([⟨(⟨2, ![a, b]⟩ : Shape), f0⟩, ⟨(⟨2, ![a, b]⟩ : Shape), f1⟩, ⟨(⟨2, ![a, b]⟩ : Shape), f2⟩, ⟨(⟨2, ![a, b]⟩ : Shape), f3⟩, ⟨(⟨2, ![a, b]⟩ : Shape), f4⟩, ⟨(⟨2, ![a, b]⟩ : Shape), f5⟩, ⟨(⟨2, ![a, b]⟩ : Shape), f6⟩, ⟨(⟨2, ![a, b]⟩ : Shape), f7⟩] : List ((s : Shape) × (s.Idx → α))) h (ix2 p d) 5 (show 5 < 8 by decide) ⟨2, ![a, b]⟩ f5 rfl rfl (a + (a + (a + (a + (a + (0)))))) rfl (ix2 u d)
      (fun c hc => match c, hc with | ⟨0, _⟩, hc => absurd rfl hc | ⟨1, _⟩, _ => rfl)
      (by have hp' : p.val = 5 * a + u.val := hp
          show a + (a + (a + (a + (a + (0))))) + u.val = p.val; omega)).trans (h5 u d)
  | ⟨6, _⟩, hp =>
    (concatenate_apply_piece (t := ⟨2, ![n, b]⟩) (0 : Fin 2) ([⟨(⟨2, ![a, b]⟩ : Shape), f0⟩, ⟨(⟨2, ![a, b]⟩ : Shape), f1⟩, ⟨(⟨2, ![a, b]⟩ : Shape), f2⟩, ⟨(⟨2, ![a, b]⟩ : Shape), f3⟩, ⟨(⟨2, ![a, b]⟩ : Shape), f4⟩, ⟨(⟨2, ![a, b]⟩ : Shape), f5⟩, ⟨(⟨2, ![a, b]⟩ : Shape), f6⟩, ⟨(⟨2, ![a, b]⟩ : Shape), f7⟩] : List ((s : Shape) × (s.Idx → α))) h (ix2 p d) 6 (show 6 < 8 by decide) ⟨2, ![a, b]⟩ f6 rfl rfl (a + (a + (a + (a + (a + (a + (0))))))) rfl (ix2 u d)
      (fun c hc => match c, hc with | ⟨0, _⟩, hc => absurd rfl hc | ⟨1, _⟩, _ => rfl)
      (by have hp' : p.val = 6 * a + u.val := hp
          show a + (a + (a + (a + (a + (a + (0)))))) + u.val = p.val; omega)).trans (h6 u d)
  | ⟨7, _⟩, hp =>
    (concatenate_apply_piece (t := ⟨2, ![n, b]⟩) (0 : Fin 2) ([⟨(⟨2, ![a, b]⟩ : Shape), f0⟩, ⟨(⟨2, ![a, b]⟩ : Shape), f1⟩, ⟨(⟨2, ![a, b]⟩ : Shape), f2⟩, ⟨(⟨2, ![a, b]⟩ : Shape), f3⟩, ⟨(⟨2, ![a, b]⟩ : Shape), f4⟩, ⟨(⟨2, ![a, b]⟩ : Shape), f5⟩, ⟨(⟨2, ![a, b]⟩ : Shape), f6⟩, ⟨(⟨2, ![a, b]⟩ : Shape), f7⟩] : List ((s : Shape) × (s.Idx → α))) h (ix2 p d) 7 (show 7 < 8 by decide) ⟨2, ![a, b]⟩ f7 rfl rfl (a + (a + (a + (a + (a + (a + (a + (0)))))))) rfl (ix2 u d)
      (fun c hc => match c, hc with | ⟨0, _⟩, hc => absurd rfl hc | ⟨1, _⟩, _ => rfl)
      (by have hp' : p.val = 7 * a + u.val := hp
          show a + (a + (a + (a + (a + (a + (a + (0))))))) + u.val = p.val; omega)).trans (h7 u d)

end Cert.LibRowStack

end
-- ==== Proof.Tile.lean ====
/-
  What one grid step of the kernel stores, entry by entry.

  A step holds eight consecutive encoder rows `x0[0, i, ·]` (`i < 8`), one batch of predictor rows `x1[0, u, ·]`
  (`u < 64`), the whole transposed weight `x2[d, v]` and the bias row `x3[0, v]`. It forms the eight slabs
  `tanh (x0[0, i, d] + x1[0, u, d])`, stacks them into 512 rows (row `i · 64 + u`), multiplies by `x2` into a zero
  accumulator and adds the bias row. So the stored tile at `(i · 64 + u, v)` is

      Σ_d tanh (x0[0, i, d] + x1[0, u, d]) · x2[d, v] + x3[0, v].

  A change of float format is the identity on the extended reals, so the cast of the stacked slabs before the
  product does not appear.
-/
import proofs.«134151_j85633057948138_2_alg».proof.Proof.Gen.KernelIdeal.Frame
import proofs.«134151_j85633057948138_2_alg».proof.Proof.LibPlainMatmul
import proofs.«134151_j85633057948138_2_alg».proof.Proof.LibLoadAt
import proofs.«134151_j85633057948138_2_alg».proof.Proof.LibRowStack
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.TcCoe Idealize.ShloMosaic.ValueIdx

theorem origin2 : (![0, 0] : Fin 2 → Nat) = fun _ => 0 := funext fun a => by fin_cases a <;> rfl
theorem origin3 : (![0, 0, 0] : Fin 3 → Nat) = fun _ => 0 := funext fun a => by fin_cases a <;> rfl

/-- One slab: an encoder row (a `[1, 1, 640]` piece) broadcast over the 64 predictor rows, added to them, through `tanh`. -/
def slab (x1 : Vec Ideal S1x64x640 .f32) (e : Vec Ideal S1x1x640 .f32) : FVec Ideal S64x640 .f32 :=
  tanh (addf (broadcastTo S64x640 (shapeCast S1x640 (shapeCast S640 e shapeCasts_S1x1x640_S640) shapeCasts_S640_S1x640)
    broadcasts_S1x640_S64x640) (shapeCast S64x640 x1 shapeCasts_S1x64x640_S64x640))

/-- The slab at `(u, d)` is `tanh (e[0, 0, d] + x1[0, u, d])`. -/
theorem slab_at (x1 : Vec Ideal S1x64x640 .f32) (e : Vec Ideal S1x1x640 .f32) (u : Fin 64) (d : Fin 640) :
    slab x1 e (ix2 u d) = Ideal.tanh (e (ix3 (0 : Fin 1) (0 : Fin 1) d) + x1 (ix3 (0 : Fin 1) u d)) := by
  unfold slab
  show Ideal.tanh (_ + _) = _
  rw [broadcastTo_1b_ab_apply, shapeCast_a_1a_apply, shapeCast_1ab_ab_apply,
    shapeCast_apply e shapeCasts_S1x1x640_S640 (ix1 d) (ix3 (0 : Fin 1) (0 : Fin 1) d) (by
      rw [Shape.rowMajor_val_three, Shape.rowMajor_val_one]
      show (0 * 1 + 0) * 640 + d.val = d.val
      omega)]

/-- Row `k` of the encoder block, loaded as a `[1, 1, 640]` piece, read at `d`. -/
theorem ld_row (x0 : Vec Ideal S1x8x640 .f32) (k : Fin 8)
    (inb : ∀ a, (![0, k.val, 0] : Fin 3 → Nat) a + S1x1x640.size a ≤ S1x8x640.size a) (d : Fin 640) :
    View.ld x0 (Rect.unit (s := S1x8x640) ![0, k.val, 0] S1x1x640.size inb) (ix3 (0 : Fin 1) (0 : Fin 1) d)
      = x0 (ix3 (0 : Fin 1) k d) :=
  Cert.LibLoadAt.ld3_at x0 0 k.val 0 inb (0 : Fin 1) (0 : Fin 1) d (0 : Fin 1) k d rfl (by simp) (by simp)

/-- The value one step stores: the eight slabs stacked, times the weight into a zero accumulator, plus the bias row. -/
def tile (x0 : Vec Ideal S1x8x640 .f32) (x1 : Vec Ideal S1x64x640 .f32) (x2 : Vec Ideal S640x4096 .bf16)
    (x3 : Vec Ideal S1x4096 .f32) : FVec Ideal S512x4096 .f32 :=
  addf (matmul dot_S512x640_S640x4096_S512x4096_1_0_0_1_n_n none
      (truncf .bf16 (concatenate S512x640 0
         [⟨S64x640, slab x1 (View.ld x0 r0_1)⟩,
          ⟨S64x640, slab x1 (View.ld x0 r0_2)⟩,
          ⟨S64x640, slab x1 (View.ld x0 r0_3)⟩,
          ⟨S64x640, slab x1 (View.ld x0 r0_4)⟩,
          ⟨S64x640, slab x1 (View.ld x0 r0_5)⟩,
          ⟨S64x640, slab x1 (View.ld x0 r0_6)⟩,
          ⟨S64x640, slab x1 (View.ld x0 r0_7)⟩,
          ⟨S64x640, slab x1 (View.ld x0 r0_8)⟩]
         concatenates_S64x640_S64x640_S64x640_S64x640_S64x640_S64x640_S64x640_S64x640_S512x640_d0) bitsLt_bf16_f32)
      (shapeCast S640x4096 x2 shapeCasts_S640x4096_S640x4096 : FVec Ideal S640x4096 .bf16) (constant S512x4096 .f32 0x00000000#32))
    (broadcastTo S512x4096 (shapeCast S1x4096 (shapeCast S1x4096 x3 shapeCasts_S1x4096_S1x4096) shapeCasts_S1x4096_S1x4096)
      broadcasts_S1x4096_S512x4096)

/-- The buffer the body leaves is that value, stored through the whole-buffer rectangle, of the loaded blocks. -/
theorem out_eq_tile (x0 : Vec Ideal S1x8x640 .f32) (x1 : Vec Ideal S1x64x640 .f32) (x2 : Vec Ideal S640x4096 .bf16)
    (x3 : Vec Ideal S1x4096 .f32) :
    out0_4 (F := Ideal) x0 x1 x2 x3
      = View.canon [⟨r0_11, tile x0 (View.ld x1 r0_0) (View.ld x2 r0_9) (View.ld x3 r0_10)⟩] := rfl

/-! The product's dimension numbers: the left operand's columns against the right operand's rows. -/

theorem lhs0 (i : S512x4096.Idx) (q : dot_S512x640_S640x4096_S512x4096_1_0_0_1_n_n.contr.Idx) : (dot_S512x640_S640x4096_S512x4096_1_0_0_1_n_n.lhsIdx i q 0).val = (i 0).val := by
  unfold DotDims.lhsIdx
  rw [dif_neg (show ¬(0 : Fin S512x640.rank) ∈ dot_S512x640_S640x4096_S512x4096_1_0_0_1_n_n.lhsBatch by decide),
    dif_pos (show (0 : Fin S512x640.rank) ∈ dot_S512x640_S640x4096_S512x4096_1_0_0_1_n_n.lhsNonContracting by decide)]
  rfl
theorem lhs1 (i : S512x4096.Idx) (q : dot_S512x640_S640x4096_S512x4096_1_0_0_1_n_n.contr.Idx) : (dot_S512x640_S640x4096_S512x4096_1_0_0_1_n_n.lhsIdx i q 1).val = (q ⟨0, by decide⟩).val :=
  dot_S512x640_S640x4096_S512x4096_1_0_0_1_n_n.lhsIdx_val_of_single rfl i q
theorem rhs0 (i : S512x4096.Idx) (q : dot_S512x640_S640x4096_S512x4096_1_0_0_1_n_n.contr.Idx) : (dot_S512x640_S640x4096_S512x4096_1_0_0_1_n_n.rhsIdx i q 0).val = (q ⟨0, by decide⟩).val :=
  dot_S512x640_S640x4096_S512x4096_1_0_0_1_n_n.rhsIdx_val_of_single rfl i q
theorem rhs1 (i : S512x4096.Idx) (q : dot_S512x640_S640x4096_S512x4096_1_0_0_1_n_n.contr.Idx) : (dot_S512x640_S640x4096_S512x4096_1_0_0_1_n_n.rhsIdx i q 1).val = (i 1).val := by
  unfold DotDims.rhsIdx
  rw [dif_neg (show ¬(1 : Fin S640x4096.rank) ∈ dot_S512x640_S640x4096_S512x4096_1_0_0_1_n_n.rhsBatch by decide),
    dif_pos (show (1 : Fin S640x4096.rank) ∈ dot_S512x640_S640x4096_S512x4096_1_0_0_1_n_n.rhsNonContracting by decide)]
  rfl

/-- THE TILE AT AN ENTRY: row `i · 64 + u`, column `v`. -/
theorem tile_at (x0 : Vec Ideal S1x8x640 .f32) (x1 : Vec Ideal S1x64x640 .f32) (x2 : Vec Ideal S640x4096 .bf16)
    (x3 : Vec Ideal S1x4096 .f32) (i : Fin 8) (u : Fin 64) (v : Fin 4096) (p : Fin 512) (hp : p.val = i.val * 64 + u.val) :
    tile x0 x1 x2 x3 (ix2 p v)
      = (∑ d : Fin 640, Ideal.tanh (x0 (ix3 (0 : Fin 1) i d) + x1 (ix3 (0 : Fin 1) u d)) * x2 (ix2 d v))
        + x3 (ix2 (0 : Fin 1) v) := by
  unfold tile Idealize.ShloMosaic.matmul
  rw [addf_apply, Cert.LibPlainMatmul.matmul_zero_at dot_S512x640_S640x4096_S512x4096_1_0_0_1_n_n none rfl rfl lhs0 lhs1 rhs0 rhs1, broadcastTo_1b_ab_apply]
  simp only [shapeCast_self]
  refine congrArg (· + x3 (ix2 (0 : Fin 1) v)) (Finset.sum_congr rfl fun d _ => ?_)
  refine congrArg (· * x2 (ix2 d v)) ?_
  rw [truncf_apply]
  exact Cert.LibRowStack.stack8_at _ _ _ _ _ _ _ _ concatenates_S64x640_S64x640_S64x640_S64x640_S64x640_S64x640_S64x640_S64x640_S512x640_d0
    (fun k u d => Ideal.tanh (x0 (ix3 (0 : Fin 1) k d) + x1 (ix3 (0 : Fin 1) u d)))
    (fun u d => (slab_at x1 _ u d).trans (congrArg (fun z => Ideal.tanh (z + x1 (ix3 (0 : Fin 1) u d))) (ld_row x0 (0 : Fin 8) _ d)))
    (fun u d => (slab_at x1 _ u d).trans (congrArg (fun z => Ideal.tanh (z + x1 (ix3 (0 : Fin 1) u d))) (ld_row x0 (1 : Fin 8) _ d)))
    (fun u d => (slab_at x1 _ u d).trans (congrArg (fun z => Ideal.tanh (z + x1 (ix3 (0 : Fin 1) u d))) (ld_row x0 (2 : Fin 8) _ d)))
    (fun u d => (slab_at x1 _ u d).trans (congrArg (fun z => Ideal.tanh (z + x1 (ix3 (0 : Fin 1) u d))) (ld_row x0 (3 : Fin 8) _ d)))
    (fun u d => (slab_at x1 _ u d).trans (congrArg (fun z => Ideal.tanh (z + x1 (ix3 (0 : Fin 1) u d))) (ld_row x0 (4 : Fin 8) _ d)))
    (fun u d => (slab_at x1 _ u d).trans (congrArg (fun z => Ideal.tanh (z + x1 (ix3 (0 : Fin 1) u d))) (ld_row x0 (5 : Fin 8) _ d)))
    (fun u d => (slab_at x1 _ u d).trans (congrArg (fun z => Ideal.tanh (z + x1 (ix3 (0 : Fin 1) u d))) (ld_row x0 (6 : Fin 8) _ d)))
    (fun u d => (slab_at x1 _ u d).trans (congrArg (fun z => Ideal.tanh (z + x1 (ix3 (0 : Fin 1) u d))) (ld_row x0 (7 : Fin 8) _ d)))
    i u d p hp

/-- THE STORED BUFFER AT AN ENTRY, from the blocks the step was given. -/
theorem out_at (x0 : Vec Ideal S1x8x640 .f32) (x1 : Vec Ideal S1x64x640 .f32) (x2 : Vec Ideal S640x4096 .bf16)
    (x3 : Vec Ideal S1x4096 .f32) (i : Fin 8) (u : Fin 64) (v : Fin 4096) (p : Fin 512) (hp : p.val = i.val * 64 + u.val) :
    out0_4 (F := Ideal) x0 x1 x2 x3 (ix2 p v)
      = (∑ d : Fin 640, Ideal.tanh (x0 (ix3 (0 : Fin 1) i d) + x1 (ix3 (0 : Fin 1) u d)) * x2 (ix2 d v))
        + x3 (ix2 (0 : Fin 1) v) := by
  rw [out_eq_tile, View.canon_unit_zero origin2]
  simp only [View.ld_unit_zero (S := S1x64x640) origin3, View.ld_unit_zero (S := S640x4096) origin2,
    View.ld_unit_zero (S := S1x4096) origin2]
  exact tile_at x0 x1 x2 x3 i u v p hp

end Cert.KernelIdeal.Tile

end
-- ==== Proof.Rows.lean ====
/-
  From the grid's tiles to the whole array.

  The grid has `4 · 32 = 128` points. At point `t` the kernel is given encoder rows `8 · (t % 32) … 8 · (t % 32) + 7` of
  batch `t / 32`, the 64 predictor rows of the same batch, the whole transposed weight and the bias row, and writes
  rows `512 · t … 512 · t + 511` of the `[65536, 4096]` output. Row `512 · t + 64 · i + u` is therefore batch
  `b = t / 32`, time `8 · (t % 32) + i`, label position `u` — exactly the row-major reading `b = r / 16384`,
  `time = r / 64 % 256`, `u = r % 64` of the row `r` itself. So every tile is the restriction of ONE function of the
  four operand arrays (`rowsK`), the 128 tiles cover the output (row `r` lies in the tile of point `r / 512`), and the
  output array after the run is that function.
-/
import proofs.«134151_j85633057948138_2_alg».proof.Proof.Tile
import proofs.«134151_j85633057948138_2_alg».proof.Proof.Spec

set_option maxRecDepth 16384

noncomputable section

namespace Cert.KernelIdeal.Rows

open Cert.KernelIdeal Cert.KernelIdeal.Gen Idealize.ShloMosaic Idealize.ShloMosaic.TcCoe Idealize.ShloMosaic.ValueIdx
open Idealize.SL.Sem
open Idealize.ShloMosaic.Pipeline (Dat)
open Cert.Joiner (row_b row_t row_u)

/-- The output as one function of the kernel's four operand arrays: encoder, predictor, the TRANSPOSED weight `Wt[d, v]`
    and the bias as a `[1, 4096]` row. -/
def rowsK (enc : FVec Ideal S4x256x640 .f32) (pred : FVec Ideal S4x64x640 .f32) (Wt : FVec Ideal S640x4096 .bf16)
    (b2 : FVec Ideal S1x4096 .f32) : FVec Ideal S65536x4096 .f32 :=
  fun j => (∑ d : Fin 640,
      Ideal.tanh (enc (ix3 (⟨(j 0).val / 16384, row_b (j 0)⟩ : Fin 4) (⟨(j 0).val / 64 % 256, row_t (j 0)⟩ : Fin 256) d)
        + pred (ix3 (⟨(j 0).val / 16384, row_b (j 0)⟩ : Fin 4) (⟨(j 0).val % 64, row_u (j 0)⟩ : Fin 64) d))
      * Wt (ix2 d (j 1))) + b2 (ix2 (0 : Fin 1) (j 1))

variable (m : (ℓ : Loc nD τ sig) → Buf (Elt Ideal) ℓ)

/-- The printed index maps, decided once over the 128 grid points: the encoder window moves with `(t / 32, t % 32)`,
    the predictor window with `t / 32`, the weight and bias windows stay, the output window is at block row `t`. -/
theorem idx_facts : ∀ t : Fin cfg0.N,
    win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem lt8 (y : Fin 512) : y.val / 64 < 8 := by have := y.isLt; omega
theorem lt64 (y : Fin 512) : y.val % 64 < 64 := Nat.mod_lt _ (by decide)

/-- WHAT POINT `t` WRITES BACK is block `t` of `rowsK` of the operand arrays as the region finds them. -/
theorem flushed_eq (c : Dev nD) (t : Fin cfg0.N) :
    (dats (F := Ideal) m 0 c).flushed 4 t
      = ((cfg0.win 4).blk t).view.read (Elt Ideal)
          (rowsK (V m c main_arg0) (V m c main_arg1) (V m c main_v1) (V m c main_v2)) := by
  show (cfg0.win 4).cut (grid0.coords t) ((dats m 0 c).after 4 t) = _
  rw [after0_4]
  obtain ⟨a0, a1, a2, b0, b1, b2, w0, w1, s0, s1, o0, o1⟩ := idx_facts t
  have ht : t.val < 128 := t.isLt
  funext y
  have hy0 : (y 0).val < 512 := (y 0).isLt
  have hy1 : (y 1).val < 4096 := (y 1).isLt
  have hp : (y 0 : Fin 512).val = (⟨(y 0).val / 64, lt8 (y 0)⟩ : Fin 8).val * 64 + (⟨(y 0).val % 64, lt64 (y 0)⟩ : Fin 64).val := by
    show (y 0).val = (y 0).val / 64 * 64 + (y 0).val % 64
    omega
  refine ((congrArg (out0_4 (F := Ideal) (iblk m c 0 t) (iblk m c 1 t) (iblk m c 2 t) (iblk m c 3 t)) (eq_ix2 y)).trans
    (Cert.KernelIdeal.Tile.out_at (iblk m c 0 t) (iblk m c 1 t) (iblk m c 2 t) (iblk m c 3 t)
      (⟨(y 0).val / 64, lt8 (y 0)⟩ : Fin 8) (⟨(y 0).val % 64, lt64 (y 0)⟩ : Fin 64) (y 1) (y 0) hp)).trans ?_
  -- each block entry is the operand array's entry at the row's own coordinates
  have e0 : ∀ d : Fin 640, iblk (F := Ideal) m c 0 t (ix3 (0 : Fin 1) (⟨(y 0).val / 64, lt8 (y 0)⟩ : Fin 8) d)
      = V m c main_arg0 (ix3 (⟨((((cfg0.win 4).blk t).view.emb y) 0).val / 16384, row_b _⟩ : Fin 4)
          (⟨((((cfg0.win 4).blk t).view.emb y) 0).val / 64 % 256, row_t _⟩ : Fin 256) d) := fun d => by
    show V m c main_arg0 (((cfg0.win 0).blk t).view.emb (ix3 (0 : Fin 1) (⟨(y 0).val / 64, lt8 (y 0)⟩ : Fin 8) d)) = _
    refine congrArg (V m c main_arg0) (funext fun a => Fin.ext ?_)
    match a with
    | ⟨0, _⟩ =>
      show win0_0.index t (0 : Fin 3) * 1 + 1 * 0 = (win0_4.index t (0 : Fin 2) * 512 + 1 * (y 0).val) / 16384
      omega
    | ⟨1, _⟩ =>
      show win0_0.index t (1 : Fin 3) * 8 + 1 * ((y 0).val / 64) = (win0_4.index t (0 : Fin 2) * 512 + 1 * (y 0).val) / 64 % 256
      omega
    | ⟨2, _⟩ =>
      show win0_0.index t (2 : Fin 3) * 640 + 1 * d.val = d.val
      omega
  have e1 : ∀ d : Fin 640, iblk (F := Ideal) m c 1 t (ix3 (0 : Fin 1) (⟨(y 0).val % 64, lt64 (y 0)⟩ : Fin 64) d)
      = V m c main_arg1 (ix3 (⟨((((cfg0.win 4).blk t).view.emb y) 0).val / 16384, row_b _⟩ : Fin 4)
          (⟨((((cfg0.win 4).blk t).view.emb y) 0).val % 64, row_u _⟩ : Fin 64) d) := fun d => by
    show V m c main_arg1 (((cfg0.win 1).blk t).view.emb (ix3 (0 : Fin 1) (⟨(y 0).val % 64, lt64 (y 0)⟩ : Fin 64) d)) = _
    refine congrArg (V m c main_arg1) (funext fun a => Fin.ext ?_)
    match a with
    | ⟨0, _⟩ =>
      show win0_1.index t (0 : Fin 3) * 1 + 1 * 0 = (win0_4.index t (0 : Fin 2) * 512 + 1 * (y 0).val) / 16384
      omega
    | ⟨1, _⟩ =>
      show win0_1.index t (1 : Fin 3) * 64 + 1 * ((y 0).val % 64) = (win0_4.index t (0 : Fin 2) * 512 + 1 * (y 0).val) % 64
      omega
    | ⟨2, _⟩ =>
      show win0_1.index t (2 : Fin 3) * 640 + 1 * d.val = d.val
      omega
  have e2 : ∀ d : Fin 640, iblk (F := Ideal) m c 2 t (ix2 d (y 1))
      = V m c main_v1 (ix2 d ((((cfg0.win 4).blk t).view.emb y) 1)) := fun d => by
    show V m c main_v1 (((cfg0.win 2).blk t).view.emb (ix2 d (y 1))) = _
    refine congrArg (V m c main_v1) (funext fun a => Fin.ext ?_)
    match a with
    | ⟨0, _⟩ =>
      show win0_2.index t (0 : Fin 2) * 640 + 1 * d.val = d.val
      omega
    | ⟨1, _⟩ =>
      show win0_2.index t (1 : Fin 2) * 4096 + 1 * (y 1).val = win0_4.index t (1 : Fin 2) * 4096 + 1 * (y 1).val
      omega
  have e3 : iblk (F := Ideal) m c 3 t (ix2 (0 : Fin 1) (y 1))
      = V m c main_v2 (ix2 (0 : Fin 1) ((((cfg0.win 4).blk t).view.emb y) 1)) := by
    show V m c main_v2 (((cfg0.win 3).blk t).view.emb (ix2 (0 : Fin 1) (y 1))) = _
    refine congrArg (V m c main_v2) (funext fun a => Fin.ext ?_)
    match a with
    | ⟨0, _⟩ =>
      show win0_3.index t (0 : Fin 2) * 1 + 1 * 0 = 0
      omega
    | ⟨1, _⟩ =>
      show win0_3.index t (1 : Fin 2) * 4096 + 1 * (y 1).val = win0_4.index t (1 : Fin 2) * 4096 + 1 * (y 1).val
      omega
  simp only [e0, e1, e2, e3]
  rfl

/-- An index of the output array is in point `t`'s block iff each coordinate is in the block's range on its axis. -/
theorem mem_blk (t : Fin cfg0.N) (i : S65536x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v3).slice (win0_4.rect t)).set ↔ _
  rw [View.set_slice_whole, Rect.mem_set_unit]
  exact Iff.rfl

/-- Row `r` of the output lies in the block of point `r / 512`, which writes back. -/
theorem cover (i : S65536x4096.Idx) :
    ∃ t : Fin cfg0.N, (cfg0.win 4).flush t = true ∧ i ∈ ((cfg0.win 4).blk t).view.set := by
  have h0 : (i 0).val < 65536 := (i 0).isLt
  have h1 : (i 1).val < 4096 := (i 1).isLt
  have hN : (i 0).val / 512 < cfg0.N := by rw [show cfg0.N = 128 from N_0]; omega
  obtain ⟨_, _, _, _, _, _, _, _, _, _, o0, o1⟩ := idx_facts ⟨(i 0).val / 512, hN⟩
  have o0' : win0_4.index ⟨(i 0).val / 512, hN⟩ (0 : Fin 2) = (i 0).val / 512 := o0
  refine ⟨⟨(i 0).val / 512, hN⟩, flush0_4 _, (mem_blk _ i).2 fun a => ?_⟩
  match a with
  | ⟨0, _⟩ =>
    show win0_4.index ⟨(i 0).val / 512, hN⟩ (0 : Fin 2) * 512 ≤ (i 0).val
      ∧ (i 0).val < win0_4.index ⟨(i 0).val / 512, hN⟩ (0 : Fin 2) * 512 + 512
    omega
  | ⟨1, _⟩ =>
    show win0_4.index ⟨(i 0).val / 512, hN⟩ (1 : Fin 2) * 4096 ≤ (i 1).val
      ∧ (i 1).val < win0_4.index ⟨(i 0).val / 512, hN⟩ (1 : Fin 2) * 4096 + 4096
    omega

/-- THE OUTPUT ARRAY after the run is `rowsK` of the operand arrays as the region finds them. -/
theorem final (c : Dev nD) :
    (dats (F := Ideal) m 0 c).arrAt 4 cfg0.N
      = rowsK (V m c main_arg0) (V m c main_arg1) (V m c main_v1) (V m c main_v2) :=
  (dats m 0 c).arrAt_eq_of_cover 4 _ (fun t _ => flushed_eq m c t) cover

end Cert.KernelIdeal.Rows

end
-- ==== Proof.Ends.lean ====
/-
  The host lines around the kernel.

  Before the kernel the weight `W[v, d]` is transposed to `Wt[d, v]` and cast to a narrower float format (the identity on
  the extended reals), and the bias `bias[v]` is reshaped to a `[1, 4096]` row; the encoder and predictor arrays reach the
  kernel as launched. So the kernel's `[65536, 4096]` output, a function of its four operands, is the joint output of the
  four ARGUMENTS with `(b, t, u)` flattened into rows. After the kernel that array is reshaped to `[4, 256, 64, 4096]`:
  entry `(b, t, u, v)` is row `(b · 256 + t) · 64 + u`, column `v` — the joint output itself.
-/
import proofs.«134151_j85633057948138_2_alg».proof.Proof.Rows
import Idealize.ShloMosaic.Lib.StableHlo.Run

set_option maxRecDepth 16384

noncomputable section

namespace Cert.KernelIdeal.Ends

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The kernel's third operand is the weight transposed (and cast). -/
theorem V_Wt (c : Dev nD) :
    (V (F := Ideal) m c main_v1 : FVec Ideal S640x4096 .bf16)
      = truncf .bf16 (transpose S640x4096 [1, 0] (m ((c : Thread nD τ).loc main_arg2)) transposes_S4096x640_S640x4096_1_0 :
          FVec Ideal S640x4096 .f32) bitsLt_bf16_f32 := by
  show StableHlo.after hostOps0 (fun b => m (c, b)) (Proc.devRef .tc main_v1) = _
  after_results

/-- At `(d, v)` it holds `W[v, d]`. -/
theorem Wt_at (c : Dev nD) (d : Fin 640) (v : Fin 4096) :
    V (F := Ideal) m c main_v1 (ix2 d v) = m ((c : Thread nD τ).loc main_arg2) (ix2 v d) := by
  rw [V_Wt]
  exact transpose_ix2_apply (m ((c : Thread nD τ).loc main_arg2)) transposes_S4096x640_S640x4096_1_0 d v

/-- The kernel's fourth operand is the bias as a one-row matrix. -/
theorem V_b2 (c : Dev nD) :
    (V (F := Ideal) m c main_v2 : FVec Ideal S1x4096 .f32)
      = shapeCast S1x4096 (m ((c : Thread nD τ).loc main_arg3)) shapeCasts_S4096_S1x4096 := by
  show StableHlo.after hostOps0 (fun b => m (c, b)) (Proc.devRef .tc main_v2) = _
  after_results
  rfl

/-- At `(0, v)` it holds `bias[v]`. -/
theorem b2_at (c : Dev nD) (v : Fin 4096) :
    V (F := Ideal) m c main_v2 (ix2 (0 : Fin 1) v) = m ((c : Thread nD τ).loc main_arg3) (ix1 v) := by
  rw [V_b2]
  exact shapeCast_a_1a_apply (m ((c : Thread nD τ).loc main_arg3)) shapeCasts_S4096_S1x4096 (0 : Fin 1) v

/-- The kernel's output, as a function of the ARGUMENTS, is the joint output with its leading axes flattened. -/
theorem rowsK_eq (c : Dev nD) :
    Cert.KernelIdeal.Rows.rowsK (V m c main_arg0) (V m c main_arg1) (V m c main_v1) (V m c main_v2)
      = Cert.Joiner.rows (m ((c : Thread nD τ).loc main_arg0)) (m ((c : Thread nD τ).loc main_arg1))
          (m ((c : Thread nD τ).loc main_arg2)) (m ((c : Thread nD τ).loc main_arg3)) := by
  funext j
  dsimp only [Cert.KernelIdeal.Rows.rowsK, Cert.Joiner.rows, Cert.Joiner.cell]
  rw [V_main_arg0, V_main_arg1, b2_at m c (j 1)]
  refine congrArg (· + m ((c : Thread nD τ).loc main_arg3) (ix1 (j 1))) (Finset.sum_congr rfl fun d _ => ?_)
  rw [Wt_at m c d (j 1)]

/-- THE RESULT BUFFER after the whole program is the joint output of the arguments. -/
theorem result_eq (c : Dev nD) :
    Pipeline.afterTail₀ cfgs (dats (F := Ideal) m) 0 (V0 m) [hostOps1] c main_v4
      = Cert.Joiner.joint (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v4) = _
  after_results
  have hw := (Pipeline.withArrays_arr spec0 launch0.win.arr_inj c (V0 m c)
    (fun w => (dats (F := Ideal) m 0 c).arrAt w cfg0.N) 4).trans (Cert.KernelIdeal.Rows.final m c)
  funext i
  obtain ⟨b, t, u, v, rfl⟩ : ∃ (b : Fin 4) (t : Fin 256) (u : Fin 64) (v : Fin 4096), i = ix4 b t u v :=
    ⟨i 0, i 1, i 2, i 3, eq_ix4 i⟩
  have hr : (b.val * 256 + t.val) * 64 + u.val < 65536 := by
    have := b.isLt; have := t.isLt; have := u.isLt; omega
  show shapeCast S4x256x64x4096 (Pipeline.withArrays (cfgs 0).spec c (V0 m c)
      (fun w => (dats (F := Ideal) m 0 c).arrAt w (cfgs 0).N) (Proc.devRef .tc main_v3))
    shapeCasts_S65536x4096_S4x256x64x4096 (ix4 b t u v) = _
  rw [shapeCast_apply _ shapeCasts_S65536x4096_S4x256x64x4096 (ix4 b t u v)
    (ix2 (⟨(b.val * 256 + t.val) * 64 + u.val, hr⟩ : Fin 65536) v) (by
      rw [Shape.rowMajor_val_two, Shape.rowMajor_val_four]
      show ((b.val * 256 + t.val) * 64 + u.val) * 4096 + v.val = ((b.val * 256 + t.val) * 64 + u.val) * 4096 + v.val
      rfl)]
  refine (congrFun hw (ix2 (⟨(b.val * 256 + t.val) * 64 + u.val, hr⟩ : Fin 65536) v)).trans ?_
  rw [rowsK_eq]
  exact Cert.Joiner.rows_eq _ _ _ _ b t u v ⟨(b.val * 256 + t.val) * 64 + u.val, hr⟩ rfl

end Cert.KernelIdeal.Ends

end
-- ==== Proof.lean ====
/-
  A transducer joiner kernel against its plain array reference, over the extended reals.

  Both programs compute, from an encoder array `enc[b, t, d]`, a predictor array `pred[b, u, d]`, an output weight
  `W[v, d]` and a bias `bias[v]`,

      out[b, t, u, v] = Σ_d tanh (enc[b, t, d] + pred[b, u, d]) · W[v, d] + bias[v]      (Proof/Spec.lean, `Joiner.joint`).

  The reference does it with two broadcasts, an addition, `tanh`, one contraction over the feature axis and a
  broadcast bias (Proof/RefSide.lean). The kernel first transposes `W`, then walks a `4 × 32` grid: each step takes eight
  encoder rows and the 64 predictor rows of one batch, stacks the eight `tanh` slabs into 512 rows, multiplies by the
  transposed weight into a zero accumulator and adds the bias row (Proof/Tile.lean); the 128 tiles of 512 rows are the
  restrictions of one function and cover the `[65536, 4096]` output (Proof/Rows.lean); a final reshape splits the
  65536 rows back into `(b, t, u)` (Proof/Ends.lean). The two sums have the same terms in the same order of factors, the
  zero accumulator contributes nothing, and the changes of float format are the identity on the extended reals, so
  the two results agree entry by entry with no appeal to finiteness of the inputs.

  The three frame claims are the generated frame runs (the reference's is its run with the result dropped); the
  idealization rewrote no operation, so `preserves` is `True`.
-/
import proofs.«134151_j85633057948138_2_alg».proof.Defs
import proofs.«134151_j85633057948138_2_alg».proof.Proof.Gen.Kernel
import proofs.«134151_j85633057948138_2_alg».proof.Proof.Gen.Kernel.Skeleton
import proofs.«134151_j85633057948138_2_alg».proof.Proof.Gen.Kernel.Launch
import proofs.«134151_j85633057948138_2_alg».proof.Proof.Gen.Kernel.Points
import proofs.«134151_j85633057948138_2_alg».proof.Proof.Gen.Kernel.Frame
import proofs.«134151_j85633057948138_2_alg».proof.Proof.Gen.KernelIdeal
import proofs.«134151_j85633057948138_2_alg».proof.Proof.Gen.KernelIdeal.Skeleton
import proofs.«134151_j85633057948138_2_alg».proof.Proof.Gen.KernelIdeal.Launch
import proofs.«134151_j85633057948138_2_alg».proof.Proof.Gen.KernelIdeal.Points
import proofs.«134151_j85633057948138_2_alg».proof.Proof.Gen.KernelIdeal.Frame
import proofs.«134151_j85633057948138_2_alg».proof.Proof.Gen.ReferenceIdeal
import proofs.«134151_j85633057948138_2_alg».proof.Proof.Gen.ReferenceIdeal.Run
import proofs.«134151_j85633057948138_2_alg».proof.Proof.Gen.ReferenceIdeal.Read
import proofs.«134151_j85633057948138_2_alg».proof.Proof.Gen.Pre_finite_inputs
import proofs.«134151_j85633057948138_2_alg».proof.Proof.RefSide
import proofs.«134151_j85633057948138_2_alg».proof.Proof.Ends
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section KernelRun

open Cert.KernelIdeal Cert.KernelIdeal.Gen

/-- The idealized kernel's run: every weakly fair execution ends with the result buffer at the joint output of the
    argument arrays, and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
        = Cert.Joiner.joint (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (Cert.KernelIdeal.Ends.result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end KernelRun

/-- From memories that agree on the four arguments both idealized programs end with the joint output of those
    arguments in their result buffers. -/
theorem algebraic : Cert.algebraic_KernelIdeal_ReferenceIdeal := by
  intro m ρ m' ρ' _ hagree
  refine ⟨fun c => Cert.Joiner.joint (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
